-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x2048x64 : Shape := ⟨4, ![4, 16, 2048, 64]⟩
abbrev S_ : Shape := ⟨0, ![]⟩

class Facts : Prop where
  bcast_S_S4x16x2048x64 : S_.BroadcastsInDim S4x16x2048x64 (![] : Fin 0 → Fin S4x16x2048x64.rank)
  reducesTo_S4x16x2048x64_S_d0_1_2_3 : S4x16x2048x64.ReducesTo [0, 1, 2, 3] S_
  h_S_ : 0 < S_.numel

variable [Facts]

def fn {F : FTy → Type} [FloatOps F] (main_arg0 : FVec F S4x16x2048x64 .f32) (main_arg1 : FVec F S4x16x2048x64 .f32) (main_arg2 : FVec F S4x16x2048x64 .f32) : IVec S_ 1 :=
  let main_v0 : FVec F S4x16x2048x64 .f32 := Host.absf main_arg0
  let main_cst : FVec F S_ .f32 := constant S_ .f32 0x7F800000#32
  let main_v1 : FVec F S4x16x2048x64 .f32 := broadcastInDim S4x16x2048x64 ![] bcast_S_S4x16x2048x64 main_cst
  let main_v2 : IVec S4x16x2048x64 1 := cmpf .olt main_v0 main_v1
  let main_c : IVec S_ 1 := constantI S_ 1 1#1
  let main_v3 : IVec S_ 1 := (fun x v => Host.reduce IntOp.andi x v reducesTo_S4x16x2048x64_S_d0_1_2_3 h_S_) main_v2 main_c
  let main_v4 : FVec F S4x16x2048x64 .f32 := Host.absf main_arg1
  let main_cst_0 : FVec F S_ .f32 := constant S_ .f32 0x7F800000#32
  let main_v5 : FVec F S4x16x2048x64 .f32 := broadcastInDim S4x16x2048x64 ![] bcast_S_S4x16x2048x64 main_cst_0
  let main_v6 : IVec S4x16x2048x64 1 := cmpf .olt main_v4 main_v5
  let main_c_1 : IVec S_ 1 := constantI S_ 1 1#1
  let main_v7 : IVec S_ 1 := (fun x v => Host.reduce IntOp.andi x v reducesTo_S4x16x2048x64_S_d0_1_2_3 h_S_) main_v6 main_c_1
  let main_v8 : IVec S_ 1 := andi main_v3 main_v7
  let main_v9 : FVec F S4x16x2048x64 .f32 := Host.absf main_arg2
  let main_cst_2 : FVec F S_ .f32 := constant S_ .f32 0x7F800000#32
  let main_v10 : FVec F S4x16x2048x64 .f32 := broadcastInDim S4x16x2048x64 ![] bcast_S_S4x16x2048x64 main_cst_2
  let main_v11 : IVec S4x16x2048x64 1 := cmpf .olt main_v9 main_v10
  let main_c_3 : IVec S_ 1 := constantI S_ 1 1#1
  let main_v12 : IVec S_ 1 := (fun x v => Host.reduce IntOp.andi x v reducesTo_S4x16x2048x64_S_d0_1_2_3 h_S_) main_v11 main_c_3
  let main_v13 : IVec S_ 1 := andi main_v8 main_v12
  main_v13
-- ==== Kernel.lean ====
abbrev S4x16x2048x64 : Shape := ⟨4, ![4, 16, 2048, 64]⟩
abbrev S64x2048x64 : Shape := ⟨3, ![64, 2048, 64]⟩
abbrev S_ : Shape := ⟨0, ![]⟩
abbrev S64x2048x2048 : Shape := ⟨3, ![64, 2048, 2048]⟩
abbrev S1x512x64 : Shape := ⟨3, ![1, 512, 64]⟩
abbrev S1x2048x64 : Shape := ⟨3, ![1, 2048, 64]⟩
abbrev S1x512x2048 : Shape := ⟨3, ![1, 512, 2048]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩
abbrev S4x16x2048x2048 : Shape := ⟨4, ![4, 16, 2048, 2048]⟩

abbrev nBuf : Space → Nat
  | .hbm => 16
  | .vmem => 10
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S64x2048x64, .f32⟩
  | .hbm, ⟨4, _⟩ => ⟨S_, .f32⟩
  | .hbm, ⟨5, _⟩ => ⟨S64x2048x64, .f32⟩
  | .hbm, ⟨6, _⟩ => ⟨S64x2048x64, .f32⟩
  | .hbm, ⟨7, _⟩ => ⟨S64x2048x64, .bf16⟩
  | .hbm, ⟨8, _⟩ => ⟨S64x2048x64, .f32⟩
  | .hbm, ⟨9, _⟩ => ⟨S64x2048x64, .bf16⟩
  | .hbm, ⟨10, _⟩ => ⟨S64x2048x64, .f32⟩
  | .hbm, ⟨11, _⟩ => ⟨S64x2048x64, .bf16⟩
  | .hbm, ⟨12, _⟩ => ⟨S64x2048x64, .f32⟩
  | .hbm, ⟨13, _⟩ => ⟨S64x2048x2048, .f32⟩
  | .hbm, ⟨14, _⟩ => ⟨S4x16x2048x64, .f32⟩
  | .hbm, ⟨15, _⟩ => ⟨S4x16x2048x2048, .f32⟩
  | .local _ .vmem, ⟨0, _⟩ => ⟨S1x512x64, .bf16⟩
  | .local _ .vmem, ⟨1, _⟩ => ⟨S1x512x64, .bf16⟩
  | .local _ .vmem, ⟨2, _⟩ => ⟨S1x2048x64, .bf16⟩
  | .local _ .vmem, ⟨3, _⟩ => ⟨S1x2048x64, .bf16⟩
  | .local _ .vmem, ⟨4, _⟩ => ⟨S1x2048x64, .bf16⟩
  | .local _ .vmem, ⟨5, _⟩ => ⟨S1x2048x64, .bf16⟩
  | .local _ .vmem, ⟨6, _⟩ => ⟨S1x512x64, .f32⟩
  | .local _ .vmem, ⟨7, _⟩ => ⟨S1x512x64, .f32⟩
  | .local _ .vmem, ⟨8, _⟩ => ⟨S1x512x2048, .f32⟩
  | .local _ .vmem, ⟨9, _⟩ => ⟨S1x512x2048, .f32⟩
  | _, _ => ⟨S4x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![64, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S4x16x2048x64_S64x2048x64 : S4x16x2048x64.ShapeCasts S64x2048x64
  bcast_S_S64x2048x64 : S_.BroadcastsInDim S64x2048x64 (![] : Fin 0 → Fin S64x2048x64.rank)
  bitsLt_bf16_f32 : FTy.bits .bf16 < FTy.bits .f32
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S512x2048_S512 : S512x2048.Reduces [1] S512
  shapeCasts_S512_S512x1 : S512.ShapeCasts S512x1
  broadcasts_S512x1_S512x2048 : S512x1.Broadcasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  shapeCasts_S512x64_S1x512x64 : S512x64.ShapeCasts S1x512x64
  shapeCasts_S64x2048x64_S4x16x2048x64 : S64x2048x64.ShapeCasts S4x16x2048x64
  shapeCasts_S64x2048x2048_S4x16x2048x2048 : S64x2048x2048.ShapeCasts S4x16x2048x2048
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S64x2048x64.size a
  hwx0_0 : ∀ i : grid0.Coords, EltTy.bits .bf16 = 32 ∨ (Rect.block (s := S64x2048x64) S1x512x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S64x2048x64.size a
  hwx0_1 : ∀ i : grid0.Coords, EltTy.bits .bf16 = 32 ∨ (Rect.block (s := S64x2048x64) S1x2048x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S64x2048x64.size a
  hwx0_2 : ∀ i : grid0.Coords, EltTy.bits .bf16 = 32 ∨ (Rect.block (s := S64x2048x64) S1x2048x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x64.size a ≤ S64x2048x64.size a
  hwx0_3 : ∀ i : grid0.Coords, EltTy.bits .f32 = 32 ∨ (Rect.block (s := S64x2048x64) S1x512x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x2048.size a ≤ S64x2048x2048.size a
  hwx0_4 : ∀ i : grid0.Coords, EltTy.bits .f32 = 32 ∨ (Rect.block (s := S64x2048x2048) S1x512x2048.size (cc0_transform_4 i) (hinb0_4 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v3) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8_0) S1x512x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8_1) S1x512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x16x2048x64 : Shape := ⟨4, ![4, 16, 2048, 64]⟩
abbrev S_ : Shape := ⟨0, ![]⟩
abbrev S4x16x2048x2048 : Shape := ⟨4, ![4, 16, 2048, 2048]⟩
abbrev S4x16x2048 : Shape := ⟨3, ![4, 16, 2048]⟩
abbrev S4x16x2048x1 : Shape := ⟨4, ![4, 16, 2048, 1]⟩

abbrev nBuf : Space → Nat
  | .hbm => 22
  | .vmem => 0
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S_, .f32⟩
  | .hbm, ⟨4, _⟩ => ⟨S4x16x2048x64, .f32⟩
  | .hbm, ⟨5, _⟩ => ⟨S4x16x2048x64, .f32⟩
  | .hbm, ⟨6, _⟩ => ⟨S4x16x2048x2048, .f32⟩
  | .hbm, ⟨7, _⟩ => ⟨S_, .f32⟩
  | .hbm, ⟨8, _⟩ => ⟨S4x16x2048, .f32⟩
  | .hbm, ⟨9, _⟩ => ⟨S_, .f32⟩
  | .hbm, ⟨10, _⟩ => ⟨S4x16x2048, .f32⟩
  | .hbm, ⟨11, _⟩ => ⟨S4x16x2048, .f32⟩
  | .hbm, ⟨12, _⟩ => ⟨S4x16x2048x1, .f32⟩
  | .hbm, ⟨13, _⟩ => ⟨S4x16x2048x2048, .f32⟩
  | .hbm, ⟨14, _⟩ => ⟨S4x16x2048x2048, .f32⟩
  | .hbm, ⟨15, _⟩ => ⟨S4x16x2048x2048, .f32⟩
  | .hbm, ⟨16, _⟩ => ⟨S_, .f32⟩
  | .hbm, ⟨17, _⟩ => ⟨S4x16x2048, .f32⟩
  | .hbm, ⟨18, _⟩ => ⟨S4x16x2048x1, .f32⟩
  | .hbm, ⟨19, _⟩ => ⟨S4x16x2048x2048, .f32⟩
  | .hbm, ⟨20, _⟩ => ⟨S4x16x2048x2048, .f32⟩
  | .hbm, ⟨21, _⟩ => ⟨S4x16x2048x64, .f32⟩
  | _, _ => ⟨S4x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S_S4x16x2048x64 : S_.BroadcastsInDim S4x16x2048x64 (![] : Fin 0 → Fin S4x16x2048x64.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.Attention.lean ====
/-
  Scaled dot-product attention on the extended reals, as both programs compute it.

  For query row r and key c of one (batch, head) pair the score is  s r c = Σ_d (q r d · 1/8) · k c d.
  A row's weights are  w c = exp (s c − M)  with  M  the maximum of the row (the fold of `max` from −∞ over
  the keys), the attention matrix is  a c = w c / Σ_c' w c'  and the output row is  Σ_c a c · v c d.

  The same function is stated twice: over [4, 16, 2048, ·] arrays (batch and head as two axes) and over
  [64, 2048, ·] arrays (batch and head merged into one axis, the query scaled beforehand).  `attn_merged` and
  `out_merged` say that the second, read at row  b·16 + h,  is the first read at (b, h).
-/
import Idealize.ShloMosaic.PureOps.Ideal.Laws
import Idealize.ShloMosaic.Lib.ValueIdx
import Mathlib.Data.Finset.Fold

noncomputable section

namespace Cert.Attention

open Idealize.ShloMosaic Idealize.ShloMosaic.ValueIdx

/-- −∞, spelt as the f32 word both row maxima start from. -/
abbrev negInf : EReal := Ideal.ofBits .f32 0xFF800000#32
/-- The f32 word 0.125, the factor the query is scaled by. -/
abbrev eighth : EReal := Ideal.ofBits .f32 0x3E000000#32
/-- The f32 word 8.0, the divisor the query is divided by. -/
abbrev eight : EReal := Ideal.ofBits .f32 0x41000000#32

theorem eight_eq : eight = ((8 : ℝ) : EReal) := by
  show Ideal.ofBits .f32 0x41000000#32 = _
  simp [Ideal.ofBits, Ideal.ieee, -EReal.coe_mul]; norm_num

theorem eighth_eq : eighth = ((1 / 8 : ℝ) : EReal) := by
  show Ideal.ofBits .f32 0x3E000000#32 = _
  simp [Ideal.ofBits, Ideal.ieee, -EReal.coe_mul]; norm_num

/-- Dividing by 8 is multiplying by 1/8, on every extended real (no finiteness needed). -/
theorem div_eight (x : EReal) : Ideal.div x eight = x * eighth := by
  rw [eight_eq, eighth_eq]
  exact Ideal.div_coe (by norm_num) x

/-! ## One row -/

/-- The maximum of a row of scores: the fold of `max` from −∞ over the 2048 keys. -/
def rowMax (s : Fin 2048 → EReal) : EReal := (Finset.univ : Finset (Fin 2048)).fold max negInf s

/-- The unnormalised weight of key `c`. -/
def weight (s : Fin 2048 → EReal) (c : Fin 2048) : EReal := Ideal.exp (s c - rowMax s)

/-- The softmax of a row at key `c`. -/
def softmax (s : Fin 2048 → EReal) (c : Fin 2048) : EReal :=
  Ideal.div (weight s c) (∑ c' : Fin 2048, weight s c')

/-- Taking the maximum with −∞ once more changes nothing: the fold already starts there. -/
theorem max_negInf_rowMax (s : Fin 2048 → EReal) : max negInf (rowMax s) = rowMax s := by
  unfold rowMax
  exact max_eq_right ((Finset.le_fold_max _).2 (Or.inl le_rfl))

/-! ## Batch and head as two axes -/

abbrev A4 (n : ℕ) := (⟨4, ![4, 16, 2048, n]⟩ : Shape).Idx → EReal

/-- The scores of query row `r` of pair (b, h). -/
def scores (q k : A4 64) (b : Fin 4) (h : Fin 16) (r : Fin 2048) (c : Fin 2048) : EReal :=
  ∑ d : Fin 64, (q (ix4 b h r d) * eighth) * k (ix4 b h c d)

/-- The attention matrix. -/
def attn (q k : A4 64) : A4 2048 := fun i => softmax (scores q k (i 0) (i 1) (i 2)) (i 3)

/-- The output. -/
def out (q k v : A4 64) : A4 64 :=
  fun i => ∑ c : Fin 2048, attn q k (ix4 (i 0) (i 1) (i 2) c) * v (ix4 (i 0) (i 1) c (i 3))

theorem attn_apply (q k : A4 64) (b : Fin 4) (h : Fin 16) (r c : Fin 2048) :
    attn q k (ix4 b h r c) = softmax (scores q k b h r) c := rfl

theorem out_apply (q k v : A4 64) (b : Fin 4) (h : Fin 16) (r : Fin 2048) (d : Fin 64) :
    out q k v (ix4 b h r d) = ∑ c : Fin 2048, softmax (scores q k b h r) c * v (ix4 b h c d) := rfl

/-! ## Batch and head merged -/

abbrev A3 (n : ℕ) := (⟨3, ![64, 2048, n]⟩ : Shape).Idx → EReal

def scores3 (Q K : A3 64) (n : Fin 64) (r : Fin 2048) (c : Fin 2048) : EReal :=
  ∑ d : Fin 64, Q (ix3 n r d) * K (ix3 n c d)

def attn3 (Q K : A3 64) : A3 2048 := fun i => softmax (scores3 Q K (i 0) (i 1)) (i 2)

def out3 (Q K V : A3 64) : A3 64 :=
  fun i => ∑ c : Fin 2048, attn3 Q K (ix3 (i 0) (i 1) c) * V (ix3 (i 0) c (i 2))

theorem attn3_apply (Q K : A3 64) (n : Fin 64) (r c : Fin 2048) :
    attn3 Q K (ix3 n r c) = softmax (scores3 Q K n r) c := rfl

theorem out3_apply (Q K V : A3 64) (n : Fin 64) (r : Fin 2048) (d : Fin 64) :
    out3 Q K V (ix3 n r d) = ∑ c : Fin 2048, softmax (scores3 Q K n r) c * V (ix3 n c d) := rfl

/-- If the merged query is the scaled query and the merged key the key, row by row, the scores agree. -/
theorem scores_merged (q k : A4 64) (Q K : A3 64) (b : Fin 4) (h : Fin 16) (n : Fin 64)
    (hQ : ∀ r d, Q (ix3 n r d) = q (ix4 b h r d) * eighth) (hK : ∀ c d, K (ix3 n c d) = k (ix4 b h c d))
    (r : Fin 2048) : scores3 Q K n r = scores q k b h r := by
  funext c
  exact Finset.sum_congr rfl fun d _ => by rw [hQ r d, hK c d]

theorem attn_merged (q k : A4 64) (Q K : A3 64) (b : Fin 4) (h : Fin 16) (n : Fin 64)
    (hQ : ∀ r d, Q (ix3 n r d) = q (ix4 b h r d) * eighth) (hK : ∀ c d, K (ix3 n c d) = k (ix4 b h c d))
    (r c : Fin 2048) : attn3 Q K (ix3 n r c) = attn q k (ix4 b h r c) := by
  rw [attn3_apply, attn_apply, scores_merged q k Q K b h n hQ hK r]

theorem out_merged (q k v : A4 64) (Q K V : A3 64) (b : Fin 4) (h : Fin 16) (n : Fin 64)
    (hQ : ∀ r d, Q (ix3 n r d) = q (ix4 b h r d) * eighth) (hK : ∀ c d, K (ix3 n c d) = k (ix4 b h c d))
    (hV : ∀ c d, V (ix3 n c d) = v (ix4 b h c d))
    (r : Fin 2048) (d : Fin 64) : out3 Q K V (ix3 n r d) = out q k v (ix4 b h r d) := by
  rw [out3_apply, out_apply, scores_merged q k Q K b h n hQ hK r]
  exact Finset.sum_congr rfl fun c _ => by rw [hV c d]

end Cert.Attention

end
-- ==== Proof.Reference.lean ====
/-
  The reference program's result terms are the attention functions.

  The reference is read one operation at a time by the generated module: the query divided by 8, the
  contraction over the feature axis (the scores), the row maximum from −∞ and its maximum with −∞ once more,
  the broadcasts of that maximum back over the keys, the subtraction and the exponential (the weights), the
  row sum from 0 and its broadcasts, the quotient (the softmax), and the contraction of the quotient with the
  values over the key axis.  Each stage below is stated at an index built from its coordinates, so every
  coordinate has a literal range, and each is proved from the previous one.

  `ref_attn`: the quotient is `Cert.Attention.attn`.  `ref_out`: the final contraction is `Cert.Attention.out`.
-/
import proofs.«138348_j58755152609364_2_alg».proof.Proof.Gen.ReferenceIdeal.Read
import proofs.«138348_j58755152609364_2_alg».proof.Proof.Attention

noncomputable section

namespace Cert.ReferenceIdeal.RefValue

open Cert.ReferenceIdeal Cert.ReferenceIdeal.Read Cert.Attention Idealize.ShloMosaic Idealize.ShloMosaic.ValueIdx

/-- A [4, 16, 2048, 64] array of extended reals: the type of the three arguments. -/
abbrev Arr := (⟨S4x16x2048x64, .f32⟩ : BufTy).Contents (Elt Ideal)

/-! ## The scores -/

/-- The left operand of the first contraction is read at (b, h, r, d). -/
theorem lidx_v2 (b : Fin 4) (h : Fin 16) (r c : Fin 2048) (d : Fin 64) :
    lidx_main_v2 (ix4 b h r c) d = ix4 b h r d :=
  funext fun a => Fin.ext (by match a with | ⟨0, _⟩ => rfl | ⟨1, _⟩ => rfl | ⟨2, _⟩ => rfl | ⟨3, _⟩ => rfl)

/-- The right operand of the first contraction is read at (b, h, c, d). -/
theorem ridx_v2 (b : Fin 4) (h : Fin 16) (r c : Fin 2048) (d : Fin 64) :
    ridx_main_v2 (ix4 b h r c) d = ix4 b h c d :=
  funext fun a => Fin.ext (by match a with | ⟨0, _⟩ => rfl | ⟨1, _⟩ => rfl | ⟨2, _⟩ => rfl | ⟨3, _⟩ => rfl)

/-- The query divided by the constant 8 is the query times 1/8. -/
theorem v1_at (q : Arr) (i : S4x16x2048x64.Idx) :
    val_main_v1 (F := Ideal) q i = q i * eighth := by
  rw [val_main_v1_apply, val_main_v0_apply, val_main_cst_apply]
  exact div_eight _

/-- The first contraction is the score of query row r against key c. -/
theorem v2_at (q k : Arr) (b : Fin 4) (h : Fin 16) (r c : Fin 2048) :
    val_main_v2 (F := Ideal) q k (ix4 b h r c) = scores q k b h r c := by
  rw [val_main_v2_apply]
  unfold scores
  refine Finset.sum_congr rfl fun d _ => ?_
  rw [lidx_v2, ridx_v2, v1_at]

/-! ## The row maximum -/

/-- Dropping the key axis of [4, 16, 2048, 2048] leaves [4, 16, 2048]. -/
theorem reduces_d3 : S4x16x2048x2048.Reduces [3] S4x16x2048 := by decide

/-- The index over (b, h, r) whose key coordinate is c. -/
theorem lift_d3 (b : Fin 4) (h : Fin 16) (r c : Fin 2048) :
    reduces_d3.lift (ix3 b h r) c = ix4 b h r c :=
  funext fun a => Fin.ext (by match a with | ⟨0, _⟩ => rfl | ⟨1, _⟩ => rfl | ⟨2, _⟩ => rfl | ⟨3, _⟩ => rfl)

/-- A maximum-reduction over the key axis is, at each row, the fold of `max` from the initial value over the
    2048 keys (`max` is commutative and associative, so the order does not matter). -/
theorem reduce_max_d3 (x : S4x16x2048x2048.Idx → EReal) (init : S_.Idx → EReal) (j : S4x16x2048.Idx) :
    Host.reduce (FloatOps.maximumf (F := Ideal) (φ := .f32)) x init
        Facts₀.reducesTo_S4x16x2048x2048_S4x16x2048_d3 Facts₀.h_S_ j
      = (Finset.univ : Finset (Fin 2048)).fold max (init (Shape.Idx.first Facts₀.h_S_)) (x ∘ reduces_d3.lift j) :=
  Host.reduce_eq_fold_single (FloatOps.maximumf (F := Ideal) (φ := .f32)) x init
    Facts₀.reducesTo_S4x16x2048x2048_S4x16x2048_d3 reduces_d3 Facts₀.h_S_ j

/-- The reduction of the scores from −∞ is the row maximum. -/
theorem v3_at (q k : Arr) (b : Fin 4) (h : Fin 16) (r : Fin 2048) :
    val_main_v3 (F := Ideal) q k (ix3 b h r) = rowMax (scores q k b h r) := by
  unfold val_main_v3
  refine (reduce_max_d3 _ _ _).trans ?_
  unfold rowMax
  refine Finset.fold_congr fun c _ => ?_
  exact (congrArg (val_main_v2 (F := Ideal) q k) (lift_d3 b h r c)).trans (v2_at q k b h r c)

/-- Its maximum with −∞ is still the row maximum. -/
theorem v5_at (q k : Arr) (b : Fin 4) (h : Fin 16) (r : Fin 2048) :
    val_main_v5 (F := Ideal) q k (ix3 b h r) = rowMax (scores q k b h r) := by
  rw [val_main_v5_apply, val_main_v4_apply, val_main_cst_1_apply, v3_at]
  exact max_negInf_rowMax _

/-- The two broadcasts of the row maximum read it at (b, h, r), whatever the key. -/
theorem idx_v7_v6 (b : Fin 4) (h : Fin 16) (r c : Fin 2048) :
    idx_main_v6 (idx_main_v7 (ix4 b h r c)) = ix3 b h r :=
  funext fun a => Fin.ext (by match a with | ⟨0, _⟩ => rfl | ⟨1, _⟩ => rfl | ⟨2, _⟩ => rfl)

theorem v7_at (q k : Arr) (b : Fin 4) (h : Fin 16) (r c : Fin 2048) :
    val_main_v7 (F := Ideal) q k (ix4 b h r c) = rowMax (scores q k b h r) := by
  rw [val_main_v7_apply, val_main_v6_apply, idx_v7_v6, v5_at]

/-! ## The weights, their sum, the softmax -/

/-- The exponential of the score minus the row maximum is the weight. -/
theorem v9_at (q k : Arr) (b : Fin 4) (h : Fin 16) (r c : Fin 2048) :
    val_main_v9 (F := Ideal) q k (ix4 b h r c) = weight (scores q k b h r) c := by
  rw [val_main_v9_apply, val_main_v8_apply, v7_at, v2_at]
  rfl

/-- The row sum reads the weights at (b, h, r, c). -/
theorem idx_v10 (b : Fin 4) (h : Fin 16) (r c : Fin 2048) :
    idx_main_v10 (ix3 b h r) c = ix4 b h r c :=
  funext fun a => Fin.ext (by match a with | ⟨0, _⟩ => rfl | ⟨1, _⟩ => rfl | ⟨2, _⟩ => rfl | ⟨3, _⟩ => rfl)

/-- The sum-reduction from 0 is the sum of the row's weights. -/
theorem v10_at (q k : Arr) (b : Fin 4) (h : Fin 16) (r : Fin 2048) :
    val_main_v10 (F := Ideal) q k (ix3 b h r) = ∑ c : Fin 2048, weight (scores q k b h r) c := by
  rw [val_main_v10_apply, val_main_cst_2_apply]
  refine (congrArg (· + _) Ideal.ofBits_zero_f32).trans ?_
  rw [zero_add]
  refine Finset.sum_congr rfl fun c _ => ?_
  rw [idx_v10, v9_at]

/-- The two broadcasts of the row sum read it at (b, h, r), whatever the key. -/
theorem idx_v12_v11 (b : Fin 4) (h : Fin 16) (r c : Fin 2048) :
    idx_main_v11 (idx_main_v12 (ix4 b h r c)) = ix3 b h r :=
  funext fun a => Fin.ext (by match a with | ⟨0, _⟩ => rfl | ⟨1, _⟩ => rfl | ⟨2, _⟩ => rfl)

theorem v12_at (q k : Arr) (b : Fin 4) (h : Fin 16) (r c : Fin 2048) :
    val_main_v12 (F := Ideal) q k (ix4 b h r c) = ∑ c' : Fin 2048, weight (scores q k b h r) c' := by
  rw [val_main_v12_apply, val_main_v11_apply, idx_v12_v11, v10_at]

/-- The weight divided by the row sum is the softmax. -/
theorem v13_at (q k : Arr) (b : Fin 4) (h : Fin 16) (r c : Fin 2048) :
    val_main_v13 (F := Ideal) q k (ix4 b h r c) = softmax (scores q k b h r) c := by
  rw [val_main_v13_apply, v9_at, v12_at]
  rfl

/-- The reference's quotient is the attention matrix. -/
theorem ref_attn (q k : Arr) : val_main_v13 (F := Ideal) q k = attn q k := by
  funext i
  obtain ⟨b, h, r, c, rfl⟩ : ∃ (b : Fin 4) (h : Fin 16) (r : Fin 2048) (c : Fin 2048), i = ix4 b h r c :=
    ⟨i 0, i 1, i 2, i 3, eq_ix4 i⟩
  rw [v13_at, attn_apply]

/-! ## The output -/

/-- The left operand of the second contraction is read at (b, h, r, c). -/
theorem lidx_v14 (b : Fin 4) (h : Fin 16) (r : Fin 2048) (d : Fin 64) (c : Fin 2048) :
    lidx_main_v14 (ix4 b h r d) c = ix4 b h r c :=
  funext fun a => Fin.ext (by match a with | ⟨0, _⟩ => rfl | ⟨1, _⟩ => rfl | ⟨2, _⟩ => rfl | ⟨3, _⟩ => rfl)

/-- The right operand of the second contraction is read at (b, h, c, d). -/
theorem ridx_v14 (b : Fin 4) (h : Fin 16) (r : Fin 2048) (d : Fin 64) (c : Fin 2048) :
    ridx_main_v14 (ix4 b h r d) c = ix4 b h c d :=
  funext fun a => Fin.ext (by match a with | ⟨0, _⟩ => rfl | ⟨1, _⟩ => rfl | ⟨2, _⟩ => rfl | ⟨3, _⟩ => rfl)

/-- The reference's result is the attention output. -/
theorem ref_out (q k v : Arr) : val_main_v14 (F := Ideal) q k v = out q k v := by
  funext i
  obtain ⟨b, h, r, d, rfl⟩ : ∃ (b : Fin 4) (h : Fin 16) (r : Fin 2048) (d : Fin 64), i = ix4 b h r d :=
    ⟨i 0, i 1, i 2, i 3, eq_ix4 i⟩
  rw [val_main_v14_apply, out_apply]
  refine Finset.sum_congr rfl fun c _ => ?_
  rw [lidx_v14, ridx_v14, v13_at]

end Cert.ReferenceIdeal.RefValue

end
-- ==== Proof.LibMergedAxes.lean ====
/-
  Layout operations read at an index written by coordinates, for an array whose two leading axes (batch, head)
  are merged into one before a kernel and split again after it, and for a row statistic kept as a column.

  A shape cast keeps the row-major position of every element. So
  • merging the two leading axes, [a, b, c, d] → [n, c, d] with n = a·b, reads row z = p·b + q at (p, q, ·, ·), and
    splitting them again, [n, c, d] → [a, b, c, d], reads (p, q, ·, ·) at row z = p·b + q. The merged extent is a
    literal in a printed program (64, not 4·16), so it is a variable `n` here and only the row's value is related
    to p·b + q;
  • a vector [a] kept as a column [a, 1] reads (p, ·) at p.
  A broadcast along an axis of extent one reads the operand's one entry on that axis: a column [a, 1] broadcast
  to [a, b] reads (p, q) at (p, 0).
-/
import Idealize.ShloMosaic.Lib.ValueLayout

namespace Cert.LibMergedAxes

open Idealize.ShloMosaic Idealize.ShloMosaic.ValueIdx

variable {α : Type}

/-- An `[a, b, c, d]` array with its two leading axes merged, `[n, c, d]` with n = a·b, reads, at row
    `z = p·b + q`, the operand at `(p, q, r, e)`: both sit at row-major position ((p·b + q)·c + r)·d + e. -/
theorem shapeCast_abcd_ncd_apply {a b c d n : ℕ} (x : (⟨4, ![a, b, c, d]⟩ : Shape).Idx → α)
    (h : (⟨4, ![a, b, c, d]⟩ : Shape).ShapeCasts ⟨3, ![n, c, d]⟩) (p : Fin a) (q : Fin b) (r : Fin c) (e : Fin d)
    (z : Fin n) (hz : z.val = p.val * b + q.val) :
    shapeCast ⟨3, ![n, c, d]⟩ x h (ix3 z r e) = x (ix4 p q r e) :=
  shapeCast_apply x h _ _ (by
    rw [Shape.rowMajor_val_four, Shape.rowMajor_val_three]
    show ((p.val * b + q.val) * c + r.val) * d + e.val = (z.val * c + r.val) * d + e.val
    rw [hz])

/-- An `[n, c, d]` array, n = a·b, with its leading axis split, `[a, b, c, d]`, reads, at `(p, q, r, e)`, the
    operand at row `z = p·b + q`. -/
theorem shapeCast_ncd_abcd_apply {a b c d n : ℕ} (x : (⟨3, ![n, c, d]⟩ : Shape).Idx → α)
    (h : (⟨3, ![n, c, d]⟩ : Shape).ShapeCasts ⟨4, ![a, b, c, d]⟩) (p : Fin a) (q : Fin b) (r : Fin c) (e : Fin d)
    (z : Fin n) (hz : z.val = p.val * b + q.val) :
    shapeCast ⟨4, ![a, b, c, d]⟩ x h (ix4 p q r e) = x (ix3 z r e) :=
  shapeCast_apply x h _ _ (by
    rw [Shape.rowMajor_val_three, Shape.rowMajor_val_four]
    show (z.val * c + r.val) * d + e.val = ((p.val * b + q.val) * c + r.val) * d + e.val
    rw [hz])

/-- A vector `[a]` kept as a column `[a, 1]` reads, at `(p, u)`, the operand at `p`, whatever the unit
    coordinate `u`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- A column `[a, 1]` broadcast to `[a, b]` reads, at `(p, q)`, the operand at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

end Cert.LibMergedAxes
-- ==== Proof.KernelBody.lean ====
/-
  One grid point of the attention kernel, as values.

  The body loads a block of 512 scaled query rows and the 2048 key and value rows of its (batch, head) pair, and
  stores two blocks.  The attention block is the softmax of the score matrix  s r c = Σ_d q r d · k c d :  each row's
  maximum M (the fold of `max` from −∞), the weights exp (s − M), each row's sum Z, and the quotient.  The
  output block is that matrix times the values,  Σ_c a r c · v c d.  Both matrix products are plain sums over the
  contracted axis, a row reduction is a sum or a fold over the row's 2048 keys, and the casts between
  [1, n, m] and [n, m] and between a vector and a column keep every element where it is.
-/
import proofs.«138348_j58755152609364_2_alg».proof.Proof.Gen.KernelIdeal.Skeleton
import proofs.«138348_j58755152609364_2_alg».proof.Proof.Attention
import proofs.«138348_j58755152609364_2_alg».proof.Proof.LibMergedAxes
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx Cert.Attention

/-! ## The two matrix products at an index -/

theorem qk_lhs0 (j : S512x2048.Idx) (q : dot_S512x64_S2048x64_S512x2048_1_1_0_0_n_n.contr.Idx) : (dot_S512x64_S2048x64_S512x2048_1_1_0_0_n_n.lhsIdx j q 0).val = (j 0).val := by
  unfold DotDims.lhsIdx
  rw [dif_neg (show ¬(0 : Fin S512x64.rank) ∈ dot_S512x64_S2048x64_S512x2048_1_1_0_0_n_n.lhsBatch by decide),
    dif_pos (show (0 : Fin S512x64.rank) ∈ dot_S512x64_S2048x64_S512x2048_1_1_0_0_n_n.lhsNonContracting by decide)]
  rfl
theorem qk_lhs1 (j : S512x2048.Idx) (q : dot_S512x64_S2048x64_S512x2048_1_1_0_0_n_n.contr.Idx) : (dot_S512x64_S2048x64_S512x2048_1_1_0_0_n_n.lhsIdx j q 1).val = (q ⟨0, by decide⟩).val :=
  dot_S512x64_S2048x64_S512x2048_1_1_0_0_n_n.lhsIdx_val_of_single rfl j q
theorem qk_rhs0 (j : S512x2048.Idx) (q : dot_S512x64_S2048x64_S512x2048_1_1_0_0_n_n.contr.Idx) : (dot_S512x64_S2048x64_S512x2048_1_1_0_0_n_n.rhsIdx j q 0).val = (j 1).val := by
  unfold DotDims.rhsIdx
  rw [dif_neg (show ¬(0 : Fin S2048x64.rank) ∈ dot_S512x64_S2048x64_S512x2048_1_1_0_0_n_n.rhsBatch by decide),
    dif_pos (show (0 : Fin S2048x64.rank) ∈ dot_S512x64_S2048x64_S512x2048_1_1_0_0_n_n.rhsNonContracting by decide)]
  rfl
theorem qk_rhs1 (j : S512x2048.Idx) (q : dot_S512x64_S2048x64_S512x2048_1_1_0_0_n_n.contr.Idx) : (dot_S512x64_S2048x64_S512x2048_1_1_0_0_n_n.rhsIdx j q 1).val = (q ⟨0, by decide⟩).val :=
  dot_S512x64_S2048x64_S512x2048_1_1_0_0_n_n.rhsIdx_val_of_single rfl j q

/-- Query rows times key rows, contracted over the 64 features: entry (r, c) is Σ_d a r d · b c d. -/
theorem qk_apply (a : FVec Ideal S512x64 .bf16) (b : FVec Ideal S2048x64 .bf16) (r : Fin 512) (c : Fin 2048) :
    matmul dot_S512x64_S2048x64_S512x2048_1_1_0_0_n_n none a b (constant (F := Ideal) S512x2048 .f32 0x00000000#32) (ix2 r c)
      = ∑ d : Fin 64, a (ix2 r d) * b (ix2 c d) := by
  simp only [matmul]
  rw [Ideal.matmul_constant_zero_apply, ← Equiv.sum_comp (contrEquiv1 dot_S512x64_S2048x64_S512x2048_1_1_0_0_n_n 64 rfl rfl).symm]
  refine Finset.sum_congr rfl fun d _ => ?_
  have hk := contrEquiv1_symm_val dot_S512x64_S2048x64_S512x2048_1_1_0_0_n_n 64 rfl rfl d
  have el : dot_S512x64_S2048x64_S512x2048_1_1_0_0_n_n.lhsIdx (ix2 r c) ((contrEquiv1 dot_S512x64_S2048x64_S512x2048_1_1_0_0_n_n 64 rfl rfl).symm d) = ix2 r d :=
    funext fun ax => Fin.ext (by
      match ax with
      | ⟨0, _⟩ => exact qk_lhs0 _ _
      | ⟨1, _⟩ => exact (qk_lhs1 _ _).trans hk)
  have er : dot_S512x64_S2048x64_S512x2048_1_1_0_0_n_n.rhsIdx (ix2 r c) ((contrEquiv1 dot_S512x64_S2048x64_S512x2048_1_1_0_0_n_n 64 rfl rfl).symm d) = ix2 c d :=
    funext fun ax => Fin.ext (by
      match ax with
      | ⟨0, _⟩ => exact qk_rhs0 _ _
      | ⟨1, _⟩ => exact (qk_rhs1 _ _).trans hk)
  rw [el, er]

theorem av_lhs0 (j : S512x64.Idx) (q : dot_S512x2048_S2048x64_S512x64_1_0_0_1_n_n.contr.Idx) : (dot_S512x2048_S2048x64_S512x64_1_0_0_1_n_n.lhsIdx j q 0).val = (j 0).val := by
  unfold DotDims.lhsIdx
  rw [dif_neg (show ¬(0 : Fin S512x2048.rank) ∈ dot_S512x2048_S2048x64_S512x64_1_0_0_1_n_n.lhsBatch by decide),
    dif_pos (show (0 : Fin S512x2048.rank) ∈ dot_S512x2048_S2048x64_S512x64_1_0_0_1_n_n.lhsNonContracting by decide)]
  rfl
theorem av_lhs1 (j : S512x64.Idx) (q : dot_S512x2048_S2048x64_S512x64_1_0_0_1_n_n.contr.Idx) : (dot_S512x2048_S2048x64_S512x64_1_0_0_1_n_n.lhsIdx j q 1).val = (q ⟨0, by decide⟩).val :=
  dot_S512x2048_S2048x64_S512x64_1_0_0_1_n_n.lhsIdx_val_of_single rfl j q
theorem av_rhs0 (j : S512x64.Idx) (q : dot_S512x2048_S2048x64_S512x64_1_0_0_1_n_n.contr.Idx) : (dot_S512x2048_S2048x64_S512x64_1_0_0_1_n_n.rhsIdx j q 0).val = (q ⟨0, by decide⟩).val :=
  dot_S512x2048_S2048x64_S512x64_1_0_0_1_n_n.rhsIdx_val_of_single rfl j q
theorem av_rhs1 (j : S512x64.Idx) (q : dot_S512x2048_S2048x64_S512x64_1_0_0_1_n_n.contr.Idx) : (dot_S512x2048_S2048x64_S512x64_1_0_0_1_n_n.rhsIdx j q 1).val = (j 1).val := by
  unfold DotDims.rhsIdx
  rw [dif_neg (show ¬(1 : Fin S2048x64.rank) ∈ dot_S512x2048_S2048x64_S512x64_1_0_0_1_n_n.rhsBatch by decide),
    dif_pos (show (1 : Fin S2048x64.rank) ∈ dot_S512x2048_S2048x64_S512x64_1_0_0_1_n_n.rhsNonContracting by decide)]
  rfl

/-- Attention rows times value columns, contracted over the 2048 keys: entry (r, d) is Σ_c a r c · b c d. -/
theorem av_apply (a : FVec Ideal S512x2048 .bf16) (b : FVec Ideal S2048x64 .bf16) (r : Fin 512) (d : Fin 64) :
    matmul dot_S512x2048_S2048x64_S512x64_1_0_0_1_n_n none a b (constant (F := Ideal) S512x64 .f32 0x00000000#32) (ix2 r d)
      = ∑ c : Fin 2048, a (ix2 r c) * b (ix2 c d) := by
  simp only [matmul]
  rw [Ideal.matmul_constant_zero_apply, ← Equiv.sum_comp (contrEquiv1 dot_S512x2048_S2048x64_S512x64_1_0_0_1_n_n 2048 rfl rfl).symm]
  refine Finset.sum_congr rfl fun c _ => ?_
  have hk := contrEquiv1_symm_val dot_S512x2048_S2048x64_S512x64_1_0_0_1_n_n 2048 rfl rfl c
  have el : dot_S512x2048_S2048x64_S512x64_1_0_0_1_n_n.lhsIdx (ix2 r d) ((contrEquiv1 dot_S512x2048_S2048x64_S512x64_1_0_0_1_n_n 2048 rfl rfl).symm c) = ix2 r c :=
    funext fun ax => Fin.ext (by
      match ax with
      | ⟨0, _⟩ => exact av_lhs0 _ _
      | ⟨1, _⟩ => exact (av_lhs1 _ _).trans hk)
  have er : dot_S512x2048_S2048x64_S512x64_1_0_0_1_n_n.rhsIdx (ix2 r d) ((contrEquiv1 dot_S512x2048_S2048x64_S512x64_1_0_0_1_n_n 2048 rfl rfl).symm c) = ix2 c d :=
    funext fun ax => Fin.ext (by
      match ax with
      | ⟨0, _⟩ => exact (av_rhs0 _ _).trans hk
      | ⟨1, _⟩ => exact av_rhs1 _ _)
  rw [el, er]

/-! ## The softmax of a block of scores, stage by stage -/

/-- Each row's maximum. -/
def rowMaxV (S : FVec Ideal S512x2048 .f32) : FVec Ideal S512 .f32 :=
  multiReduction .maximumf [1] S512 S 0xFF800000#32 reduces_S512x2048_S512 (.inl rfl) rfl

/-- Each row's sum. -/
def rowSumV (E : FVec Ideal S512x2048 .f32) : FVec Ideal S512 .f32 :=
  multiReduction .add [1] S512 E 0x00000000#32 reduces_S512x2048_S512 (.inl rfl) rfl

/-- A per-row value repeated along its row. -/
def alongRows (v : FVec Ideal S512 .f32) : FVec Ideal S512x2048 .f32 :=
  broadcastTo S512x2048 (shapeCast S512x1 v shapeCasts_S512_S512x1) broadcasts_S512x1_S512x2048

/-- The unnormalised weights exp (s − row maximum). -/
def weightsV (S : FVec Ideal S512x2048 .f32) : FVec Ideal S512x2048 .f32 :=
  exp (subf S (alongRows (rowMaxV S)))

/-- The softmax of every row. -/
def softmaxV (S : FVec Ideal S512x2048 .f32) : FVec Ideal S512x2048 .f32 :=
  divf (weightsV S) (alongRows (rowSumV (weightsV S)))

theorem alongRows_apply (v : FVec Ideal S512 .f32) (r : Fin 512) (c : Fin 2048) :
    alongRows v (ix2 r c) = v (ix1 r) := by
  unfold alongRows
  exact (Cert.LibMergedAxes.broadcastTo_a1_ab_apply _ broadcasts_S512x1_S512x2048 r c).trans
    (Cert.LibMergedAxes.shapeCast_a_a1_apply v shapeCasts_S512_S512x1 r 0)

theorem rowMaxV_apply (S : FVec Ideal S512x2048 .f32) (r : Fin 512) :
    rowMaxV S (ix1 r) = rowMax fun c => S (ix2 r c) := by
  unfold rowMaxV rowMax
  refine (Ideal.multiReduction_maximumf_single S _ reduces_S512x2048_S512 _ _ (ix1 r)).trans ?_
  exact congrArg (fun f : Fin 2048 → EReal => (Finset.univ : Finset (Fin 2048)).fold max negInf f)
    (funext fun c => congrArg S (funext fun ax => Fin.ext (by
      match ax with
      | ⟨0, _⟩ => rfl
      | ⟨1, _⟩ => rfl)))

theorem rowSumV_apply (E : FVec Ideal S512x2048 .f32) (r : Fin 512) :
    rowSumV E (ix1 r) = ∑ c : Fin 2048, E (ix2 r c) := by
  unfold rowSumV
  refine (Ideal.multiReduction_add_single E _ reduces_S512x2048_S512 _ _ (ix1 r)).trans ?_
  exact Finset.sum_congr rfl fun c _ => congrArg E (funext fun ax => Fin.ext (by
    match ax with
    | ⟨0, _⟩ => rfl
    | ⟨1, _⟩ => rfl))

theorem weightsV_apply (S : FVec Ideal S512x2048 .f32) (r : Fin 512) (c : Fin 2048) :
    weightsV S (ix2 r c) = weight (fun c' => S (ix2 r c')) c := by
  unfold weightsV weight
  exact congrArg (fun m => Ideal.exp (S (ix2 r c) - m)) ((alongRows_apply _ r c).trans (rowMaxV_apply S r))

/-- Entry (r, c) of the block's softmax is the softmax of row r at key c. -/
theorem softmaxV_apply (S : FVec Ideal S512x2048 .f32) (r : Fin 512) (c : Fin 2048) :
    softmaxV S (ix2 r c) = softmax (fun c' => S (ix2 r c')) c := by
  unfold softmaxV softmax
  exact congrArg₂ Ideal.div (weightsV_apply S r c)
    (((alongRows_apply _ r c).trans (rowSumV_apply _ r)).trans
      (Finset.sum_congr rfl fun c' _ => weightsV_apply S r c'))

/-! ## The body's payloads at an index -/

/-- The scores of query row `r` of a block against the resident keys. -/
def blockScores (x0 : FVec Ideal S1x512x64 .bf16) (x1 : FVec Ideal S1x2048x64 .bf16) (r : Fin 512) (c : Fin 2048) : EReal :=
  ∑ d : Fin 64, x0 (ix3 (0 : Fin 1) r d) * x1 (ix3 (0 : Fin 1) c d)

/-- The attention block is the softmax of the block's score matrix. -/
theorem pay1_eq (x0 : FVec Ideal S1x512x64 .bf16) (x1 : FVec Ideal S1x2048x64 .bf16) :
    k0_pay1 (F := Ideal) x0 x1
      = softmaxV (matmul dot_S512x64_S2048x64_S512x2048_1_1_0_0_n_n none (shapeCast S512x64 x0 shapeCasts_S1x512x64_S512x64)
          (shapeCast S2048x64 x1 shapeCasts_S1x2048x64_S2048x64) (constant (F := Ideal) S512x2048 .f32 0x00000000#32)) := rfl

theorem pay1_apply (x0 : FVec Ideal S1x512x64 .bf16) (x1 : FVec Ideal S1x2048x64 .bf16) (r : Fin 512) (c : Fin 2048) :
    k0_pay1 (F := Ideal) x0 x1 (ix2 r c) = softmax (blockScores x0 x1 r) c := by
  rw [pay1_eq]
  refine (softmaxV_apply _ r c).trans ?_
  refine congrArg (fun s => softmax s c) (funext fun c' => ?_)
  refine (qk_apply _ _ r c').trans ?_
  exact Finset.sum_congr rfl fun d _ =>
    congrArg₂ (· * ·) (shapeCast_1ab_ab_apply x0 shapeCasts_S1x512x64_S512x64 r d)
      (shapeCast_1ab_ab_apply x1 shapeCasts_S1x2048x64_S2048x64 c' d)

/-- What is stored to the attention window: entry (·, r, c) is the softmax of row r at key c. -/
theorem pay2_apply (x0 : FVec Ideal S1x512x64 .bf16) (x1 : FVec Ideal S1x2048x64 .bf16) (u : Fin 1) (r : Fin 512) (c : Fin 2048) :
    k0_pay2 (F := Ideal) x0 x1 (ix3 u r c) = softmax (blockScores x0 x1 r) c := by
  unfold k0_pay2
  exact (shapeCast_ab_1ab_apply _ shapeCasts_S512x2048_S1x512x2048 u r c).trans (pay1_apply x0 x1 r c)

/-- What is stored to the output window: entry (·, r, d) is Σ_c softmax (row r) c · v c d. -/
theorem pay3_apply (x0 : FVec Ideal S1x512x64 .bf16) (x1 x2 : FVec Ideal S1x2048x64 .bf16) (u : Fin 1) (r : Fin 512) (d : Fin 64) :
    k0_pay3 (F := Ideal) x0 x1 x2 (ix3 u r d)
      = ∑ c : Fin 2048, softmax (blockScores x0 x1 r) c * x2 (ix3 (0 : Fin 1) c d) := by
  unfold k0_pay3
  refine (shapeCast_ab_1ab_apply _ shapeCasts_S512x64_S1x512x64 u r d).trans ?_
  refine (av_apply _ _ r d).trans ?_
  exact Finset.sum_congr rfl fun c _ =>
    congrArg₂ (· * ·) (pay1_apply x0 x1 r c) (shapeCast_1ab_ab_apply x2 shapeCasts_S1x2048x64_S2048x64 c d)

end Cert.KernelIdeal.Body

end
-- ==== Proof.KernelBlocks.lean ====
/-
  From blocks to whole arrays.

  The grid has 64 × 4 points.  Point (i, j) loads rows 512·j … 512·j + 511 of pair i of the scaled queries and all
  2048 keys and values of pair i, and writes back rows 512·j … of pair i of the attention array and of the output
  array.  So what each point writes back is a block of ONE function of the whole input arrays (`attn3`, `out3`), the
  blocks of the 256 points cover both arrays, and after the region each array is that function.
-/
import proofs.«138348_j58755152609364_2_alg».proof.Proof.Gen.KernelIdeal.Frame
import proofs.«138348_j58755152609364_2_alg».proof.Proof.KernelBody
import Idealize.ShloMosaic.Lib.Pipeline.Value

set_option maxRecDepth 16384

noncomputable section

namespace Cert.KernelIdeal.Blocks

open Cert.KernelIdeal Cert.KernelIdeal.Gen Cert.KernelIdeal.Body Cert.Attention
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem zero3 : (![0, 0, 0] : Fin 3 → Nat) = fun _ => 0 := funext fun a => by fin_cases a <;> rfl

/-- The printed index maps, decided over the 256 grid points: the query, output and attention windows move
    together, block (i, j) of their arrays; the key and value windows stay on block i; every other block index is 0. -/
theorem idx_facts : ∀ t : Fin cfg0.N,
    win0_4.index t (0 : Fin 3) < 64 ∧ win0_4.index t (1 : Fin 3) < 4 ∧ win0_4.index t (2 : Fin 3) = 0
    ∧ win0_3.index t (0 : Fin 3) = win0_4.index t (0 : Fin 3) ∧ win0_3.index t (1 : Fin 3) = win0_4.index t (1 : Fin 3)
    ∧ win0_3.index t (2 : Fin 3) = 0
    ∧ win0_0.index t (0 : Fin 3) = win0_4.index t (0 : Fin 3) ∧ win0_0.index t (1 : Fin 3) = win0_4.index t (1 : Fin 3)
    ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 3) = win0_4.index t (0 : Fin 3) ∧ win0_2.index t (1 : Fin 3) = 0 ∧ win0_2.index t (2 : Fin 3) = 0 :=
  (by decide +kernel : ∀ t : Fin grid0.N, _)

/-- Every block (i, j) is some point's. -/
theorem idx_onto : ∀ (q0 : Fin 64) (q1 : Fin 4), ∃ t : Fin cfg0.N,
    win0_4.index t (0 : Fin 3) = q0.val ∧ win0_4.index t (1 : Fin 3) = q1.val :=
  (by decide +kernel : ∀ (q0 : Fin 64) (q1 : Fin 4), ∃ t : Fin grid0.N,
    win0_4.index t (0 : Fin 3) = q0.val ∧ win0_4.index t (1 : Fin 3) = q1.val)

/-- One point's attention block, over variables: if the loaded query block is rows R0 … R0+511 of pair N of the
    merged query and the loaded key block is pair N's keys, the stored block is rows R0 … of pair N of `attn3`. -/
theorem attn_point (Q K : A3 64) (x0 : FVec Ideal S1x512x64 .bf16) (x1 : FVec Ideal S1x2048x64 .bf16)
    (N : Fin 64) (R0 : ℕ) (hR : R0 + 512 ≤ 2048)
    (h0 : ∀ (r : Fin 512) (d : Fin 64), x0 (ix3 (0 : Fin 1) r d) = Q (ix3 N ⟨R0 + r.val, by omega⟩ d))
    (h1 : ∀ (c : Fin 2048) (d : Fin 64), x1 (ix3 (0 : Fin 1) c d) = K (ix3 N c d))
    (u : Fin 1) (r : Fin 512) (c : Fin 2048) :
    k0_pay2 (F := Ideal) x0 x1 (ix3 u r c) = attn3 Q K (ix3 N ⟨R0 + r.val, by omega⟩ c) := by
  refine (pay2_apply x0 x1 u r c).trans ?_
  rw [attn3_apply]
  refine congrArg (fun s => softmax s c) (funext fun c' => ?_)
  exact Finset.sum_congr rfl fun d _ => by rw [h0 r d, h1 c' d]

/-- One point's output block, over variables. -/
theorem out_point (Q K V : A3 64) (x0 : FVec Ideal S1x512x64 .bf16) (x1 x2 : FVec Ideal S1x2048x64 .bf16)
    (N : Fin 64) (R0 : ℕ) (hR : R0 + 512 ≤ 2048)
    (h0 : ∀ (r : Fin 512) (d : Fin 64), x0 (ix3 (0 : Fin 1) r d) = Q (ix3 N ⟨R0 + r.val, by omega⟩ d))
    (h1 : ∀ (c : Fin 2048) (d : Fin 64), x1 (ix3 (0 : Fin 1) c d) = K (ix3 N c d))
    (h2 : ∀ (c : Fin 2048) (d : Fin 64), x2 (ix3 (0 : Fin 1) c d) = V (ix3 N c d))
    (u : Fin 1) (r : Fin 512) (d : Fin 64) :
    k0_pay3 (F := Ideal) x0 x1 x2 (ix3 u r d) = out3 Q K V (ix3 N ⟨R0 + r.val, by omega⟩ d) := by
  refine (pay3_apply x0 x1 x2 u r d).trans ?_
  rw [out3_apply]
  refine Finset.sum_congr rfl fun c _ => ?_
  rw [h2 c d]
  refine congrArg (fun s => softmax s c * V (ix3 N c d)) (funext fun c' => ?_)
  exact Finset.sum_congr rfl fun d' _ => by rw [h0 r d', h1 c' d']

/-- WHAT POINT `t` WRITES BACK to the attention array is block `t` of `attn3` of the scaled queries and the keys
    as the region finds them. -/
theorem attn_flushed (c : Dev nD) (t : Fin cfg0.N) :
    (dats m 0 c).flushed 4 t
      = ((cfg0.win 4).blk t).view.read (Elt Ideal) (attn3 (V m c main_v3) (V m c main_v5)) := by
  show (cfg0.win 4).cut (grid0.coords t) ((dats m 0 c).after 4 t) = _
  rw [after0_4]
  unfold out0_4
  rw [View.canon_unit_zero zero3]
  simp only [View.ld_unit_zero (S := S1x512x64) zero3, View.ld_unit_zero (S := S1x2048x64) zero3]
  obtain ⟨e0, e1, e2, e3, e4, e5, e6, e7, e8, e9, e10, e11, e12, e13, e14⟩ := idx_facts t
  funext j
  obtain ⟨u, r, cc, rfl⟩ : ∃ (u : Fin 1) (r : Fin 512) (cc : Fin 2048), j = ix3 u r cc := ⟨j 0, j 1, j 2, eq_ix3 j⟩
  have hemb : ((cfg0.win 4).blk t).view.emb (ix3 u r cc)
      = ix3 (⟨win0_4.index t (0 : Fin 3), e0⟩ : Fin 64) (⟨win0_4.index t (1 : Fin 3) * 512 + r.val, by omega⟩ : Fin 2048) cc := by
    funext a; apply Fin.ext
    match a with
    | ⟨0, _⟩ => show win0_4.index t (0 : Fin 3) * 1 + 1 * u.val = win0_4.index t (0 : Fin 3); have := u.isLt; omega
    | ⟨1, _⟩ => show win0_4.index t (1 : Fin 3) * 512 + 1 * r.val = win0_4.index t (1 : Fin 3) * 512 + r.val; omega
    | ⟨2, _⟩ => show win0_4.index t (2 : Fin 3) * 2048 + 1 * cc.val = cc.val; omega
  show k0_pay2 (iblk m c 0 t) (iblk m c 1 t) (ix3 u r cc)
    = attn3 (V m c main_v3) (V m c main_v5) (((cfg0.win 4).blk t).view.emb (ix3 u r cc))
  rw [hemb]
  refine attn_point (V m c main_v3) (V m c main_v5) (iblk m c 0 t) (iblk m c 1 t) ⟨_, e0⟩
    (win0_4.index t (1 : Fin 3) * 512) (by omega) (fun r' d => ?_) (fun c' d => ?_) u r cc
  · show V m c main_v3 (((cfg0.win 0).blk t).view.emb (ix3 (0 : Fin 1) r' d)) = V m c main_v3 _
    refine congrArg (V m c main_v3) (funext fun a => Fin.ext ?_)
    match a with
    | ⟨0, _⟩ => show win0_0.index t (0 : Fin 3) * 1 + 1 * 0 = win0_4.index t (0 : Fin 3); omega
    | ⟨1, _⟩ => show win0_0.index t (1 : Fin 3) * 512 + 1 * r'.val = win0_4.index t (1 : Fin 3) * 512 + r'.val; omega
    | ⟨2, _⟩ => show win0_0.index t (2 : Fin 3) * 64 + 1 * d.val = d.val; omega
  · show V m c main_v5 (((cfg0.win 1).blk t).view.emb (ix3 (0 : Fin 1) c' d)) = V m c main_v5 _
    refine congrArg (V m c main_v5) (funext fun a => Fin.ext ?_)
    match a with
    | ⟨0, _⟩ => show win0_1.index t (0 : Fin 3) * 1 + 1 * 0 = win0_4.index t (0 : Fin 3); omega
    | ⟨1, _⟩ => show win0_1.index t (1 : Fin 3) * 2048 + 1 * c'.val = c'.val; omega
    | ⟨2, _⟩ => show win0_1.index t (2 : Fin 3) * 64 + 1 * d.val = d.val; omega

/-- WHAT POINT `t` WRITES BACK to the output array is block `t` of `out3`. -/
theorem out_flushed (c : Dev nD) (t : Fin cfg0.N) :
    (dats m 0 c).flushed 3 t
      = ((cfg0.win 3).blk t).view.read (Elt Ideal) (out3 (V m c main_v3) (V m c main_v5) (V m c main_v7)) := by
  show (cfg0.win 3).cut (grid0.coords t) ((dats m 0 c).after 3 t) = _
  rw [after0_3]
  unfold out0_3
  rw [View.canon_unit_zero zero3]
  simp only [View.ld_unit_zero (S := S1x512x64) zero3, View.ld_unit_zero (S := S1x2048x64) zero3]
  obtain ⟨e0, e1, e2, e3, e4, e5, e6, e7, e8, e9, e10, e11, e12, e13, e14⟩ := idx_facts t
  funext j
  obtain ⟨u, r, dd, rfl⟩ : ∃ (u : Fin 1) (r : Fin 512) (dd : Fin 64), j = ix3 u r dd := ⟨j 0, j 1, j 2, eq_ix3 j⟩
  have hemb : ((cfg0.win 3).blk t).view.emb (ix3 u r dd)
      = ix3 (⟨win0_4.index t (0 : Fin 3), e0⟩ : Fin 64) (⟨win0_4.index t (1 : Fin 3) * 512 + r.val, by omega⟩ : Fin 2048) dd := by
    funext a; apply Fin.ext
    match a with
    | ⟨0, _⟩ => show win0_3.index t (0 : Fin 3) * 1 + 1 * u.val = win0_4.index t (0 : Fin 3); have := u.isLt; omega
    | ⟨1, _⟩ => show win0_3.index t (1 : Fin 3) * 512 + 1 * r.val = win0_4.index t (1 : Fin 3) * 512 + r.val; omega
    | ⟨2, _⟩ => show win0_3.index t (2 : Fin 3) * 64 + 1 * dd.val = dd.val; omega
  show k0_pay3 (iblk m c 0 t) (iblk m c 1 t) (iblk m c 2 t) (ix3 u r dd)
    = out3 (V m c main_v3) (V m c main_v5) (V m c main_v7) (((cfg0.win 3).blk t).view.emb (ix3 u r dd))
  rw [hemb]
  refine out_point (V m c main_v3) (V m c main_v5) (V m c main_v7) (iblk m c 0 t) (iblk m c 1 t) (iblk m c 2 t) ⟨_, e0⟩
    (win0_4.index t (1 : Fin 3) * 512) (by omega) (fun r' d => ?_) (fun c' d => ?_) (fun c' d => ?_) u r dd
  · show V m c main_v3 (((cfg0.win 0).blk t).view.emb (ix3 (0 : Fin 1) r' d)) = V m c main_v3 _
    refine congrArg (V m c main_v3) (funext fun a => Fin.ext ?_)
    match a with
    | ⟨0, _⟩ => show win0_0.index t (0 : Fin 3) * 1 + 1 * 0 = win0_4.index t (0 : Fin 3); omega
    | ⟨1, _⟩ => show win0_0.index t (1 : Fin 3) * 512 + 1 * r'.val = win0_4.index t (1 : Fin 3) * 512 + r'.val; omega
    | ⟨2, _⟩ => show win0_0.index t (2 : Fin 3) * 64 + 1 * d.val = d.val; omega
  · show V m c main_v5 (((cfg0.win 1).blk t).view.emb (ix3 (0 : Fin 1) c' d)) = V m c main_v5 _
    refine congrArg (V m c main_v5) (funext fun a => Fin.ext ?_)
    match a with
    | ⟨0, _⟩ => show win0_1.index t (0 : Fin 3) * 1 + 1 * 0 = win0_4.index t (0 : Fin 3); omega
    | ⟨1, _⟩ => show win0_1.index t (1 : Fin 3) * 2048 + 1 * c'.val = c'.val; omega
    | ⟨2, _⟩ => show win0_1.index t (2 : Fin 3) * 64 + 1 * d.val = d.val; omega
  · show V m c main_v7 (((cfg0.win 2).blk t).view.emb (ix3 (0 : Fin 1) c' d)) = V m c main_v7 _
    refine congrArg (V m c main_v7) (funext fun a => Fin.ext ?_)
    match a with
    | ⟨0, _⟩ => show win0_2.index t (0 : Fin 3) * 1 + 1 * 0 = win0_4.index t (0 : Fin 3); omega
    | ⟨1, _⟩ => show win0_2.index t (1 : Fin 3) * 2048 + 1 * c'.val = c'.val; omega
    | ⟨2, _⟩ => show win0_2.index t (2 : Fin 3) * 64 + 1 * d.val = d.val; omega

/-- An index of the attention array is in point `t`'s block iff each coordinate is in the block's range on its axis. -/
theorem attn_mem_blk (t : Fin cfg0.N) (i : S64x2048x2048.Idx) :
    i ∈ ((cfg0.win 4).blk t).view.set ↔ ∀ a : Fin 3, win0_4.index t a * S1x512x2048.size a ≤ (i a).val
      ∧ (i a).val < win0_4.index t a * S1x512x2048.size a + S1x512x2048.size a := by
  show i ∈ ((View.whole main_v8_1).slice (win0_4.rect t)).set ↔ _
  rw [View.set_slice_whole, Rect.mem_set_unit]
  exact Iff.rfl

/-- The same for the output array. -/
theorem out_mem_blk (t : Fin cfg0.N) (i : S64x2048x64.Idx) :
    i ∈ ((cfg0.win 3).blk t).view.set ↔ ∀ a : Fin 3, win0_3.index t a * S1x512x64.size a ≤ (i a).val
      ∧ (i a).val < win0_3.index t a * S1x512x64.size a + S1x512x64.size a := by
  show i ∈ ((View.whole main_v8_0).slice (win0_3.rect t)).set ↔ _
  rw [View.set_slice_whole, Rect.mem_set_unit]
  exact Iff.rfl

/-- Every entry of the attention array is in the block of the point at (pair, row / 512). -/
theorem attn_cover (i : S64x2048x2048.Idx) :
    ∃ t : Fin cfg0.N, (cfg0.win 4).flush t = true ∧ i ∈ ((cfg0.win 4).blk t).view.set := by
  have hi0 : (i 0).val < 64 := (i 0).isLt
  have hi1 : (i 1).val < 2048 := (i 1).isLt
  have hi2 : (i 2).val < 2048 := (i 2).isLt
  obtain ⟨t, q0, q1⟩ := idx_onto ⟨(i 0).val, hi0⟩ ⟨(i 1).val / 512, by omega⟩
  have q0' : win0_4.index t (0 : Fin 3) = (i 0).val := q0
  have q1' : win0_4.index t (1 : Fin 3) = (i 1).val / 512 := q1
  obtain ⟨-, -, e2, -⟩ := idx_facts t
  refine ⟨t, flush0_4 t, ?_⟩
  rw [attn_mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 2048 ≤ (i 2).val ∧ (i 2).val < win0_4.index t (2 : Fin 3) * 2048 + 2048; omega

/-- Every entry of the output array likewise. -/
theorem out_cover (i : S64x2048x64.Idx) :
    ∃ t : Fin cfg0.N, (cfg0.win 3).flush t = true ∧ i ∈ ((cfg0.win 3).blk t).view.set := by
  have hi0 : (i 0).val < 64 := (i 0).isLt
  have hi1 : (i 1).val < 2048 := (i 1).isLt
  have hi2 : (i 2).val < 64 := (i 2).isLt
  obtain ⟨t, q0, q1⟩ := idx_onto ⟨(i 0).val, hi0⟩ ⟨(i 1).val / 512, by omega⟩
  have q0' : win0_4.index t (0 : Fin 3) = (i 0).val := q0
  have q1' : win0_4.index t (1 : Fin 3) = (i 1).val / 512 := q1
  obtain ⟨-, -, -, e3, e4, e5, -⟩ := idx_facts t
  refine ⟨t, flush0_3 t, ?_⟩
  rw [out_mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 64 ≤ (i 2).val ∧ (i 2).val < win0_3.index t (2 : Fin 3) * 64 + 64; omega

/-- THE ATTENTION ARRAY after the region: `attn3` of the scaled queries and the keys as the region finds them. -/
theorem attn_final (c : Dev nD) :
    (dats m 0 c).arrAt 4 cfg0.N = attn3 (V m c main_v3) (V m c main_v5) :=
  (dats m 0 c).arrAt_eq_of_cover 4 _ (fun t _ => attn_flushed m c t) attn_cover

/-- THE OUTPUT ARRAY after the region: `out3` of the scaled queries, the keys and the values. -/
theorem out_final (c : Dev nD) :
    (dats m 0 c).arrAt 3 cfg0.N = out3 (V m c main_v3) (V m c main_v5) (V m c main_v7) :=
  (dats m 0 c).arrAt_eq_of_cover 3 _ (fun t _ => out_flushed m c t) out_cover

end Cert.KernelIdeal.Blocks

end
-- ==== Proof.KernelValue.lean ====
/-
  The kernel program's two results as functions of its three arguments.

  Before the region the program merges batch and head of each argument into one axis of 64 pairs and scales the
  query by 1/8; the change to a narrower float format is the identity on extended reals.  After the region it splits
  the merged axis of both result arrays again.  A merge or split keeps every element at its row-major position, so
  pair b·16 + h of the merged arrays is (b, h) of the originals, and the region's two arrays — the merged-axis
  attention matrix and output of the scaled queries, keys and values — read at (b·16 + h, ·, ·) are the attention
  matrix and output of the original arguments at (b, h, ·, ·).
-/
import proofs.«138348_j58755152609364_2_alg».proof.Proof.KernelBlocks
import Idealize.ShloMosaic.Lib.StableHlo.Run

noncomputable section

namespace Cert.KernelIdeal.KernelValue

open Cert.KernelIdeal Cert.KernelIdeal.Gen Cert.KernelIdeal.Blocks Cert.Attention
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-- The three arguments (query, key, value) as launched, as arrays of extended reals. -/
abbrev argQ (c : Dev nD) : A4 64 := m ((c : Thread nD τ).loc main_arg0)
abbrev argK (c : Dev nD) : A4 64 := m ((c : Thread nD τ).loc main_arg1)
abbrev argV (c : Dev nD) : A4 64 := m ((c : Thread nD τ).loc main_arg2)

/-! ## The arrays the region finds -/

/-- The merged, scaled queries. -/
theorem Vq_eq (c : Dev nD) : (V m c main_v3 : S64x2048x64.Idx → EReal)
    = (truncf .bf16 (mulf (shapeCast S64x2048x64 (argQ m c) shapeCasts_S4x16x2048x64_S64x2048x64)
        (broadcastInDim S64x2048x64 ![] bcast_S_S64x2048x64 (constant (F := Ideal) S_ .f32 0x3E000000#32))) bitsLt_bf16_f32
        : FVec Ideal S64x2048x64 .bf16) := by
  show StableHlo.after hostOps0 (fun b => m (c, b)) (Proc.devRef .tc main_v3) = _
  after_results
  all_goals rfl

/-- The merged keys. -/
theorem Vk_eq (c : Dev nD) : (V m c main_v5 : S64x2048x64.Idx → EReal)
    = (truncf .bf16 (shapeCast S64x2048x64 (argK m c) shapeCasts_S4x16x2048x64_S64x2048x64 : FVec Ideal S64x2048x64 .f32) bitsLt_bf16_f32
        : FVec Ideal S64x2048x64 .bf16) := by
  show StableHlo.after hostOps0 (fun b => m (c, b)) (Proc.devRef .tc main_v5) = _
  after_results
  all_goals rfl

/-- The merged values. -/
theorem Vv_eq (c : Dev nD) : (V m c main_v7 : S64x2048x64.Idx → EReal)
    = (truncf .bf16 (shapeCast S64x2048x64 (argV m c) shapeCasts_S4x16x2048x64_S64x2048x64 : FVec Ideal S64x2048x64 .f32) bitsLt_bf16_f32
        : FVec Ideal S64x2048x64 .bf16) := by
  show StableHlo.after hostOps0 (fun b => m (c, b)) (Proc.devRef .tc main_v7) = _
  after_results
  all_goals rfl

/-- Pair n = b·16 + h of the merged, scaled queries is the query of (b, h) times 1/8. -/
theorem Vq_apply (c : Dev nD) (b : Fin 4) (h : Fin 16) (n : Fin 64) (hn : n.val = b.val * 16 + h.val) (r : Fin 2048) (d : Fin 64) :
    (V m c main_v3 : S64x2048x64.Idx → EReal) (ix3 n r d) = argQ m c (ix4 b h r d) * eighth := by
  refine (congrFun (Vq_eq m c) (ix3 n r d)).trans ?_
  exact congrArg₂ (· * ·) (Cert.LibMergedAxes.shapeCast_abcd_ncd_apply _ shapeCasts_S4x16x2048x64_S64x2048x64 b h r d n hn)
    (broadcastInDim_apply _ bcast_S_S64x2048x64 (constant (F := Ideal) S_ .f32 0x3E000000#32) (ix3 n r d) ix0 (fun a => a.elim0))

/-- Pair n = b·16 + h of the merged keys is the key array at (b, h). -/
theorem Vk_apply (c : Dev nD) (b : Fin 4) (h : Fin 16) (n : Fin 64) (hn : n.val = b.val * 16 + h.val) (r : Fin 2048) (d : Fin 64) :
    (V m c main_v5 : S64x2048x64.Idx → EReal) (ix3 n r d) = argK m c (ix4 b h r d) := by
  refine (congrFun (Vk_eq m c) (ix3 n r d)).trans ?_
  exact Cert.LibMergedAxes.shapeCast_abcd_ncd_apply _ shapeCasts_S4x16x2048x64_S64x2048x64 b h r d n hn

/-- Pair n = b·16 + h of the merged values is the value array at (b, h). -/
theorem Vv_apply (c : Dev nD) (b : Fin 4) (h : Fin 16) (n : Fin 64) (hn : n.val = b.val * 16 + h.val) (r : Fin 2048) (d : Fin 64) :
    (V m c main_v7 : S64x2048x64.Idx → EReal) (ix3 n r d) = argV m c (ix4 b h r d) := by
  refine (congrFun (Vv_eq m c) (ix3 n r d)).trans ?_
  exact Cert.LibMergedAxes.shapeCast_abcd_ncd_apply _ shapeCasts_S4x16x2048x64_S64x2048x64 b h r d n hn

/-! ## The results after the region -/

/-- The second result: the region's attention array with its leading axis split. -/
theorem attn_result (c : Dev nD) :
    (Pipeline.afterTail₀ cfgs (dats m) 0 (V0 m) [hostOps1] c main_v10 : S4x16x2048x2048.Idx → EReal)
      = shapeCast S4x16x2048x2048 (attn3 (V m c main_v3) (V m c main_v5)) shapeCasts_S64x2048x2048_S4x16x2048x2048 := by
  unfold Pipeline.afterTail₀
  show StableHlo.after hostOps1 _ (Proc.devRef .tc main_v10) = _
  after_results
  exact congrArg (fun X => shapeCast S4x16x2048x2048 X shapeCasts_S64x2048x2048_S4x16x2048x2048)
    ((Pipeline.withArrays_arr spec0 launch0.win.arr_inj c _ _ 4).trans (attn_final m c))

/-- The first result: the region's output array with its leading axis split. -/
theorem out_result (c : Dev nD) :
    (Pipeline.afterTail₀ cfgs (dats m) 0 (V0 m) [hostOps1] c main_v9 : S4x16x2048x64.Idx → EReal)
      = shapeCast S4x16x2048x64 (out3 (V m c main_v3) (V m c main_v5) (V m c main_v7)) shapeCasts_S64x2048x64_S4x16x2048x64 := by
  unfold Pipeline.afterTail₀
  show StableHlo.after hostOps1 _ (Proc.devRef .tc main_v9) = _
  after_results
  exact congrArg (fun X => shapeCast S4x16x2048x64 X shapeCasts_S64x2048x64_S4x16x2048x64)
    ((Pipeline.withArrays_arr spec0 launch0.win.arr_inj c _ _ 3).trans (out_final m c))

/-- The second result is the attention matrix of the arguments. -/
theorem attn_value (c : Dev nD) :
    (Pipeline.afterTail₀ cfgs (dats m) 0 (V0 m) [hostOps1] c main_v10 : S4x16x2048x2048.Idx → EReal)
      = attn (argQ m c) (argK m c) := by
  funext i
  obtain ⟨b, h, r, cc, rfl⟩ : ∃ (b : Fin 4) (h : Fin 16) (r : Fin 2048) (cc : Fin 2048), i = ix4 b h r cc :=
    ⟨i 0, i 1, i 2, i 3, eq_ix4 i⟩
  have hb := b.isLt
  have hh := h.isLt
  refine (congrFun (attn_result m c) (ix4 b h r cc)).trans ?_
  refine (Cert.LibMergedAxes.shapeCast_ncd_abcd_apply _ shapeCasts_S64x2048x2048_S4x16x2048x2048 b h r cc
    (⟨b.val * 16 + h.val, by omega⟩ : Fin 64) rfl).trans ?_
  exact attn_merged _ _ _ _ b h _ (fun r' d => Vq_apply m c b h _ rfl r' d) (fun c' d => Vk_apply m c b h _ rfl c' d) r cc

/-- The first result is the attention output of the arguments. -/
theorem out_value (c : Dev nD) :
    (Pipeline.afterTail₀ cfgs (dats m) 0 (V0 m) [hostOps1] c main_v9 : S4x16x2048x64.Idx → EReal)
      = out (argQ m c) (argK m c) (argV m c) := by
  funext i
  obtain ⟨b, h, r, dd, rfl⟩ : ∃ (b : Fin 4) (h : Fin 16) (r : Fin 2048) (dd : Fin 64), i = ix4 b h r dd :=
    ⟨i 0, i 1, i 2, i 3, eq_ix4 i⟩
  have hb := b.isLt
  have hh := h.isLt
  refine (congrFun (out_result m c) (ix4 b h r dd)).trans ?_
  refine (Cert.LibMergedAxes.shapeCast_ncd_abcd_apply _ shapeCasts_S64x2048x64_S4x16x2048x64 b h r dd
    (⟨b.val * 16 + h.val, by omega⟩ : Fin 64) rfl).trans ?_
  exact out_merged _ _ _ _ _ _ b h _ (fun r' d => Vq_apply m c b h _ rfl r' d) (fun c' d => Vk_apply m c b h _ rfl c' d)
    (fun c' d => Vv_apply m c b h _ rfl c' d) r dd

/-! ## The run -/

/-- Every weakly fair execution of the kernel program terminates with its two results at the attention output and the
    attention matrix of its arguments, the arguments unchanged. -/
theorem run : θ_run defs (onTc (τ := τ) (main (F := Ideal))) ⟨m, fun _ => 0, ρ⟩ fun r => ∀ c : Dev nD,
      r.2.mem ((c.tc : Thread nD τ).loc main_v9) = out (argQ m c) (argK m c) (argV m c)
      ∧ r.2.mem ((c.tc : Thread nD τ).loc main_v10) = attn (argQ m c) (argK m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v9 (Pipeline.mem_restRefs_of main_v9 (by decide) (by decide))).trans (out_value m c),
     ((h c).2 main_v10 (Pipeline.mem_restRefs_of main_v10 (by decide) (by decide))).trans (attn_value m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.KernelValue

end
-- ==== Proof.lean ====
/-
  Scaled dot-product attention: a tiled kernel against its plain reference, equal on the extended reals.

  Both programs compute, for every (batch, head) pair, the attention matrix
      a r c = exp (s r c − M r) / Σ_c' exp (s r c' − M r),   s r c = Σ_d (q r d / 8) · k c d,   M r = max_c s r c,
  and the output  o r d = Σ_c a r c · v c d.  The kernel program merges batch and head into one axis, multiplies the
  query by 0.125 where the reference divides by 8 (the same extended real for every query entry, finite or not),
  works on blocks of 512 query rows with all keys and values of the pair resident, and splits the merged axis again;
  the reference takes one more maximum with −∞, which changes nothing.  From there on the two sides apply the same
  operations to the same numbers, so no finiteness of the inputs is used: the precondition is never opened.

  The three frames are the generated ones (the reference's is its generated run with the results dropped), the
  idealization rewrote nothing, and the last claim puts the kernel program's run (Proof/KernelValue.lean) beside the
  reference's generated run read as the same two functions (Proof/Reference.lean).
-/
import proofs.«138348_j58755152609364_2_alg».proof.Defs
import proofs.«138348_j58755152609364_2_alg».proof.Proof.Gen.Kernel
import proofs.«138348_j58755152609364_2_alg».proof.Proof.Gen.Kernel.Skeleton
import proofs.«138348_j58755152609364_2_alg».proof.Proof.Gen.Kernel.Launch
import proofs.«138348_j58755152609364_2_alg».proof.Proof.Gen.Kernel.Points
import proofs.«138348_j58755152609364_2_alg».proof.Proof.Gen.Kernel.Frame
import proofs.«138348_j58755152609364_2_alg».proof.Proof.Gen.KernelIdeal
import proofs.«138348_j58755152609364_2_alg».proof.Proof.Gen.KernelIdeal.Skeleton
import proofs.«138348_j58755152609364_2_alg».proof.Proof.Gen.KernelIdeal.Launch
import proofs.«138348_j58755152609364_2_alg».proof.Proof.Gen.KernelIdeal.Points
import proofs.«138348_j58755152609364_2_alg».proof.Proof.Gen.KernelIdeal.Frame
import proofs.«138348_j58755152609364_2_alg».proof.Proof.Gen.ReferenceIdeal
import proofs.«138348_j58755152609364_2_alg».proof.Proof.Gen.ReferenceIdeal.Run
import proofs.«138348_j58755152609364_2_alg».proof.Proof.Gen.ReferenceIdeal.Read
import proofs.«138348_j58755152609364_2_alg».proof.Proof.Gen.Pre_finite_inputs
import proofs.«138348_j58755152609364_2_alg».proof.Proof.Reference
import proofs.«138348_j58755152609364_2_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no region: its frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on q, k, v both programs end with the attention output and the attention matrix of those
    arguments. -/
theorem algebraic : Cert.algebraic_KernelIdeal_ReferenceIdeal := by
  intro m ρ m' ρ' _ hagree
  refine ⟨_, _, Cert.KernelIdeal.KernelValue.run m ρ, ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  · rw [Cert.ReferenceIdeal.Read.val_main_v14_eq, Cert.ReferenceIdeal.RefValue.ref_out,
      (hagree c).1, (hagree c).2.1, (hagree c).2.2]
  · rw [Cert.ReferenceIdeal.Read.val_main_v13_eq, Cert.ReferenceIdeal.RefValue.ref_attn,
      (hagree c).1, (hagree c).2.1]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
